-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x256 : Shape := ⟨2, ![2048, 256]⟩
abbrev S1024x256 : Shape := ⟨2, ![1024, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S2048x1024_S2048x1024 : S2048x1024.ShapeCasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Ternary.lean ====
/-
  The elementwise mathematics of the ternarised weight, and the regrouping of a blocked sum.

  * `tern w` is the ternary weight: the sign (-1, 0 or 1) of `w` rounded to the nearest integer, ties to even.
  * The straight-through form `w + (tern w - w)` is `tern w` whenever `w` is a real number: on the extended
    reals the cancellation `w - w = 0` needs `w` finite (at an infinity the difference is the junk `⊥`).
  * `linear x w` is the layer both programs compute: entry (p, q) is the sum over the 4096 input features
    `k` of `x (p, k) * tern (w (q, k))`.
  * A sum of `a` consecutive blocks of `b` terms each is the sum of the `a * b` terms in order: only
    associativity of `+` in a commutative monoid, so it holds on the extended reals with no finiteness.
-/
import Idealize.ShloMosaic.PureOps.Ideal.Laws
import Idealize.ShloMosaic.Lib.ValueIdx

noncomputable section

open scoped BigOperators

namespace Cert.Ternary

open Idealize.ShloMosaic

/-- The ternary weight of an extended real: the sign of its rounding to the nearest integer (ties to even). -/
def tern (w : EReal) : EReal := Ideal.sign (Ideal.liftRound Ideal.roundHalfEven w)

/-- At a real number the ternary weight is a real number (one of -1, 0, 1). -/
theorem tern_coe (r : ℝ) : ∃ s : ℝ, tern (r : EReal) = (s : EReal) := ⟨_, rfl⟩

/-- The straight-through form collapses at a finite weight: `w + (tern w - w) = tern w`. -/
theorem straight_through (r : ℝ) : (r : EReal) + (tern (r : EReal) - (r : EReal)) = tern (r : EReal) := by
  obtain ⟨s, hs⟩ := tern_coe r
  rw [hs, ← EReal.coe_sub, ← EReal.coe_add]
  congr 1
  ring

/-- `a` consecutive blocks of `b` terms: the blocked double sum is the plain sum of the `a * b` terms. -/
theorem sum_range_blocks {β : Type*} [AddCommMonoid β] (f : ℕ → β) (b : ℕ) :
    ∀ a : ℕ, ∑ s ∈ Finset.range a, ∑ j ∈ Finset.range b, f (b * s + j) = ∑ k ∈ Finset.range (a * b), f k
  | 0 => by simp
  | a + 1 => by
    rw [Finset.sum_range_succ, sum_range_blocks f b a, Nat.succ_mul, Finset.sum_range_add]
    congr 1
    exact Finset.sum_congr rfl fun j _ => by rw [Nat.mul_comm]

/-! ## The layer, and its sum cut into sixteen blocks of 256 features -/

open Idealize.ShloMosaic.ValueIdx

variable (x : (⟨2, ![8192, 4096]⟩ : Shape).Idx → EReal) (w : (⟨2, ![4096, 4096]⟩ : Shape).Idx → EReal)

/-- The linear layer with ternarised weights: entry (p, q) is the sum over the input features `k` of
    `x (p, k)` times the ternary weight of `w (q, k)`. -/
def linear (p : Fin 8192) (q : Fin 4096) : EReal :=
  ∑ k : Fin 4096, x (ix2 p k) * tern (w (ix2 q k))

/-- Term `k` of entry (p, q), as a function of every natural number (zero past the last feature). -/
def term (p : Fin 8192) (q : Fin 4096) (k : ℕ) : EReal :=
  if h : k < 4096 then x (ix2 p ⟨k, h⟩) * tern (w (ix2 q ⟨k, h⟩)) else 0

theorem term_lt (p : Fin 8192) (q : Fin 4096) (k : ℕ) (h : k < 4096) :
    term x w p q k = x (ix2 p ⟨k, h⟩) * tern (w (ix2 q ⟨k, h⟩)) := dif_pos h

/-- Sixteen partial sums of 256 consecutive features each add up to the entry. -/
theorem blocked_eq_linear (p : Fin 8192) (q : Fin 4096) :
    ∑ s ∈ Finset.range 16, ∑ kk : Fin 256, term x w p q (256 * s + kk.val) = linear x w p q := by
  have h1 : ∀ s, ∑ kk : Fin 256, term x w p q (256 * s + kk.val) = ∑ j ∈ Finset.range 256, term x w p q (256 * s + j) :=
    fun s => Fin.sum_univ_eq_sum_range (fun j => term x w p q (256 * s + j)) 256
  simp only [h1]
  rw [sum_range_blocks (term x w p q) 256 16, show (16 * 256 : ℕ) = 4096 from rfl,
    ← Fin.sum_univ_eq_sum_range (term x w p q) 4096]
  unfold linear
  exact Finset.sum_congr rfl fun k _ => term_lt x w p q k.val k.isLt

end Cert.Ternary

end
-- ==== Proof.Payload.lean ====
/-
  One grid point's arithmetic, read at an index.

  At a point the body adds to the accumulator block `acc` (2048 rows of x by 1024 rows of weight) the product of
  the point's x block (2048 x 256) with the ternarised weight block (1024 x 256), contracted over the 256 shared
  columns. At the ideal instance the format changes are the identity and the matrix product into a zero
  accumulator is the plain sum, so entry (p, q) of the result is
      acc (p, q) + sum over k < 256 of x (p, k) * tern (w (q, k)),
  and the block a run starts from is the zero block.
-/
import proofs.«128047_j61624190763534_2_alg».proof.Proof.Gen.KernelIdeal.Skeleton
import proofs.«128047_j61624190763534_2_alg».proof.Proof.Ternary
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Ternary

/-- The block a run of points starts from is zero everywhere. -/
theorem zero_block_apply (y : S2048x1024.Idx) : k0_pay1 (F := Ideal) y = 0 := by
  show Ideal.ofBits .f32 0x00000000#32 = 0
  exact Ideal.ofBits_zero_f32

/-- The ternarised weight block, element by element: the body's select-on-sign of the rounded weight is `tern`. -/
theorem tern_block_apply (x1 : FVec Ideal S1024x256 .f32) (j : S1024x256.Idx) :
    (truncf .bf16 (select (cmpf .ogt (absf (roundeven x1)) (broadcast S1024x256 (Scalar.ofBits .f32 0x00000000#32)))
      (select (cmpf .olt (roundeven x1) (constant S1024x256 .f32 0x00000000#32)) (constant S1024x256 .f32 0xBF800000#32) (constant S1024x256 .f32 0x3F800000#32))
      (roundeven x1)) bitsLt_bf16_f32 : FVec Ideal S1024x256 .bf16) j = tern (x1 j) :=
  Ideal.jnp_sign_eq_sign_f32 (Ideal.liftRound Ideal.roundHalfEven (x1 j))

local notation "DD" => dot_S2048x256_S1024x256_S2048x1024_1_1_0_0_n_n

theorem lhs_row (y : S2048x1024.Idx) (q : (DD).contr.Idx) : ((DD).lhsIdx y q 0).val = (y 0).val := by
  unfold DotDims.lhsIdx
  rw [dif_neg (show ¬(0 : Fin S2048x256.rank) ∈ (DD).lhsBatch by decide), dif_pos (show (0 : Fin S2048x256.rank) ∈ (DD).lhsNonContracting by decide)]
  rfl
theorem lhs_col (y : S2048x1024.Idx) (q : (DD).contr.Idx) : ((DD).lhsIdx y q 1).val = (q ⟨0, by decide⟩).val :=
  (DD).lhsIdx_val_of_single rfl y q
theorem rhs_row (y : S2048x1024.Idx) (q : (DD).contr.Idx) : ((DD).rhsIdx y q 0).val = (y 1).val := by
  unfold DotDims.rhsIdx
  rw [dif_neg (show ¬(0 : Fin S1024x256.rank) ∈ (DD).rhsBatch by decide), dif_pos (show (0 : Fin S1024x256.rank) ∈ (DD).rhsNonContracting by decide)]
  rfl
theorem rhs_col (y : S2048x1024.Idx) (q : (DD).contr.Idx) : ((DD).rhsIdx y q 1).val = (q ⟨0, by decide⟩).val :=
  (DD).rhsIdx_val_of_single rfl y q

/-- One point's result at an index: the accumulator there plus the 256-term product sum of the point's blocks. -/
theorem step_apply (x0 : FVec Ideal S2048x256 .f32) (x1 : FVec Ideal S1024x256 .f32) (acc : FVec Ideal S2048x1024 .f32)
    (p : Fin 2048) (q : Fin 1024) :
    k0_pay2 x0 x1 acc (ix2 p q) = acc (ix2 p q) + ∑ k : Fin 256, x0 (ix2 p k) * tern (x1 (ix2 q k)) := by
  unfold k0_pay2
  rw [addf_apply, shapeCast_self]
  simp only [matmul]
  rw [Ideal.matmul_constant_zero_apply, ← Equiv.sum_comp (contrEquiv1 DD 256 rfl rfl).symm]
  congr 1
  refine Finset.sum_congr rfl fun k _ => ?_
  have hk := contrEquiv1_symm_val DD 256 rfl rfl k
  have el : (DD).lhsIdx (ix2 p q) ((contrEquiv1 DD 256 rfl rfl).symm k) = ix2 p k := funext fun a => Fin.ext (by
    match a with
    | ⟨0, _⟩ => exact lhs_row _ _
    | ⟨1, _⟩ => exact (lhs_col _ _).trans hk)
  have er : (DD).rhsIdx (ix2 p q) ((contrEquiv1 DD 256 rfl rfl).symm k) = ix2 q k := funext fun a => Fin.ext (by
    match a with
    | ⟨0, _⟩ => exact rhs_row _ _
    | ⟨1, _⟩ => exact (rhs_col _ _).trans hk)
  rw [el, er]
  exact congrArg (x0 (ix2 p k) * ·) (tern_block_apply x1 (ix2 q k))

end Cert.KernelIdeal.Payload

end
-- ==== Proof.Blocks.lean ====
/-
  The kernel's result array, entry by entry.

  The grid has 4 x 4 x 16 points, visited in row-major order: point t works on row block t / 64 of x (2048 rows),
  on row block (t / 16) % 4 of the weight (1024 rows), and on feature block t % 16 (256 columns of both). The
  sixteen consecutive points of a run share one output block; the first starts it from zero and every point
  adds its 256-term partial product, so after the run entry (a, b) of the output block holds the sum of the
  sixteen partial products. Entry (p, q) of the array lies in the block of run 4 * (p / 2048) + q / 1024 at place
  (p % 2048, q % 1024), and the sixteen partial sums there run over features 256 * s + k of row p of x and row q
  of the weight: together the whole contraction, `linear x w p q`.
-/
import proofs.«128047_j61624190763534_2_alg».proof.Proof.Gen.KernelIdeal.Value
import proofs.«128047_j61624190763534_2_alg».proof.Proof.Payload
import proofs.«128047_j61624190763534_2_alg».proof.Proof.Ternary

noncomputable section

open scoped BigOperators

namespace Cert.KernelIdeal.Layer

open Cert.KernelIdeal Cert.KernelIdeal.Gen Cert.KernelIdeal.Value Cert.KernelIdeal.Payload
open Idealize.ShloMosaic Idealize.ShloMosaic.TcCoe Idealize.SL.Sem Idealize.ShloMosaic.ValueIdx Cert.Ternary

variable (m : (ℓ : Loc nD τ sig) → Buf (Elt Ideal) ℓ)

/-- Which blocks of x and of the weight a grid point works on: decided over the 256 points. -/
theorem in_idx_facts : ∀ t : Fin cfg0.N, win0_0.index t (0 : Fin 2) = t.val / 64 ∧ win0_0.index t (1 : Fin 2) = t.val % 16
    ∧ win0_1.index t (0 : Fin 2) = t.val / 16 % 4 ∧ win0_1.index t (1 : Fin 2) = t.val % 16 :=
  (by decide +kernel : ∀ t : Fin grid0.N, _)

/-- The x block and the weight block of a point, at their literal shapes. -/
def xBlk (c : Dev nD) (t : Fin cfg0.N) : FVec Ideal S2048x256 .f32 := iblk m c 0 t
def wBlk (c : Dev nD) (t : Fin cfg0.N) : FVec Ideal S1024x256 .f32 := iblk m c 1 t

/-- Entry (a, k) of point t's x block is x at row (t / 64) * 2048 + a, feature (t % 16) * 256 + k. -/
theorem xBlk_apply (c : Dev nD) (t : Fin cfg0.N) (a : Fin 2048) (k : Fin 256) (P : Fin 8192) (K : Fin 4096)
    (hP : P.val = t.val / 64 * 2048 + a.val) (hK : K.val = t.val % 16 * 256 + k.val) :
    xBlk m c t (ix2 a k) = m ((c : Thread nD τ).loc main_arg0) (ix2 P K) := by
  obtain ⟨e0, e1, -, -⟩ := in_idx_facts t
  show V m c main_arg0 (((cfg0.win 0).blk t).view.emb (ix2 a k)) = V m c main_arg0 (ix2 P K)
  refine congrArg _ (funext fun d => Fin.ext ?_)
  match d with
  | ⟨0, _⟩ =>
    show win0_0.index t (0 : Fin 2) * 2048 + 1 * a.val = P.val
    rw [e0, hP]; omega
  | ⟨1, _⟩ =>
    show win0_0.index t (1 : Fin 2) * 256 + 1 * k.val = K.val
    rw [e1, hK]; omega

/-- Entry (b, k) of point t's weight block is the weight at row ((t / 16) % 4) * 1024 + b, feature (t % 16) * 256 + k. -/
theorem wBlk_apply (c : Dev nD) (t : Fin cfg0.N) (b : Fin 1024) (k : Fin 256) (Q : Fin 4096) (K : Fin 4096)
    (hQ : Q.val = t.val / 16 % 4 * 1024 + b.val) (hK : K.val = t.val % 16 * 256 + k.val) :
    wBlk m c t (ix2 b k) = m ((c : Thread nD τ).loc main_arg1) (ix2 Q K) := by
  obtain ⟨-, -, e0, e1⟩ := in_idx_facts t
  show V m c main_arg1 (((cfg0.win 1).blk t).view.emb (ix2 b k)) = V m c main_arg1 (ix2 Q K)
  refine congrArg _ (funext fun d => Fin.ext ?_)
  match d with
  | ⟨0, _⟩ =>
    show win0_1.index t (0 : Fin 2) * 1024 + 1 * b.val = Q.val
    rw [e0, hQ]; omega
  | ⟨1, _⟩ =>
    show win0_1.index t (1 : Fin 2) * 256 + 1 * k.val = K.val
    rw [e1, hK]; omega

/-- Point n's partial product at entry (a, b) of the output block (zero past the grid). -/
def addendAt (c : Dev nD) (n : ℕ) (a : Fin 2048) (b : Fin 1024) : EReal :=
  if h : n < cfg0.N then ∑ k : Fin 256, xBlk m c ⟨n, h⟩ (ix2 a k) * tern (wBlk m c ⟨n, h⟩ (ix2 b k)) else 0

def addend (c : Dev nD) (n : ℕ) (y : S2048x1024.Idx) : EReal := addendAt m c n (y 0) (y 1)

/-- The first point of a run leaves zero plus its partial product. -/
theorem reset_apply (c : Dev nD) (n : ℕ) (h : n < cfg0.N) (a : Fin 2048) (b : Fin 1024) :
    reset2 m c n h (ix2 a b) = 0 + addendAt m c n a b := by
  unfold addendAt
  rw [dif_pos h]
  exact (step_apply (xBlk m c ⟨n, h⟩) (wBlk m c ⟨n, h⟩) (k0_pay1 (F := Ideal)) a b).trans
    (congrArg (· + _) (zero_block_apply (ix2 a b)))

/-- Every later point adds its partial product to what the point before left. -/
theorem step_add_apply (c : Dev nD) (n : ℕ) (h : n < cfg0.N) (acc : FVec Ideal S2048x1024 .f32) (a : Fin 2048) (b : Fin 1024) :
    step2 m c n h acc (ix2 a b) = acc (ix2 a b) + addendAt m c n a b := by
  unfold addendAt
  rw [dif_pos h]
  exact step_apply (xBlk m c ⟨n, h⟩) (wBlk m c ⟨n, h⟩) acc a b

/-- After the sixteen points of the run starting at `b`, the output block holds the sum of their partial products. -/
theorem run_sum (c : Dev nD) (b : ℕ) (h : b + 15 < cfg0.N) (y : S2048x1024.Idx) :
    Pipeline.accAt (reset2 m c) (step2 m c) b 15 h y = 0 + ∑ s ∈ Finset.range (15 + 1), addend m c (b + s) y :=
  Pipeline.accAt_add_apply (ι := S2048x1024.Idx) (β := EReal) (reset2 m c) (step2 m c) (fun _ => 0) (addend m c) b 15
    (fun h y => by
      obtain ⟨a', b', rfl⟩ : ∃ (a' : Fin 2048) (b' : Fin 1024), y = ix2 a' b' := ⟨y 0, y 1, eq_ix2 y⟩
      exact reset_apply m c b h a' b')
    (fun n h acc y _ _ => by
      obtain ⟨a', b', rfl⟩ : ∃ (a' : Fin 2048) (b' : Fin 1024), y = ix2 a' b' := ⟨y 0, y 1, eq_ix2 y⟩
      exact step_add_apply m c n h acc a' b')
    15 le_rfl h y

/-- THE KERNEL'S RESULT at entry (p, q): the layer. -/
theorem result_apply (c : Dev nD) (p : Fin 8192) (q : Fin 4096) :
    G2 m c (ix2 p q) = linear (m ((c : Thread nD τ).loc main_arg0)) (m ((c : Thread nD τ).loc main_arg1)) p q := by
  have hp := p.isLt
  have hq := q.isLt
  have hN : cfg0.N = 256 := N_0
  have hrun : run2Of (ix2 p q) = 4 * (p.val / 2048) + q.val / 1024 := by
    show 4 * (p.val / 2048 - 0) + 1 * (q.val / 1024 - 0) = _
    omega
  have hlt : 16 * run2Of (ix2 p q) + 15 < cfg0.N := by rw [hrun, hN]; omega
  have hl0 : (loc2Of (ix2 p q) 0).val = p.val % 2048 := rfl
  have hl1 : (loc2Of (ix2 p q) 1).val = q.val % 1024 := rfl
  unfold G2
  rw [dif_pos hlt]
  refine (run_sum m c _ hlt _).trans ?_
  rw [zero_add, ← blocked_eq_linear]
  refine Finset.sum_congr rfl fun s hs => ?_
  have hs' : s < 16 := Finset.mem_range.mp hs
  have ht : 16 * run2Of (ix2 p q) + s < cfg0.N := by rw [hrun, hN]; omega
  show addendAt m c (16 * run2Of (ix2 p q) + s) (loc2Of (ix2 p q) 0) (loc2Of (ix2 p q) 1) = _
  unfold addendAt
  rw [dif_pos ht]
  refine Finset.sum_congr rfl fun k _ => ?_
  have hk := k.isLt
  have hK : 256 * s + k.val < 4096 := by omega
  rw [term_lt _ _ p q (256 * s + k.val) hK]
  exact congrArg₂ (· * ·)
    (xBlk_apply m c ⟨_, ht⟩ (loc2Of (ix2 p q) 0) k p ⟨256 * s + k.val, hK⟩
      (by show p.val = (16 * run2Of (ix2 p q) + s) / 64 * 2048 + (loc2Of (ix2 p q) 0).val; rw [hrun, hl0]; omega)
      (by show 256 * s + k.val = (16 * run2Of (ix2 p q) + s) % 16 * 256 + k.val; omega))
    (congrArg tern (wBlk_apply m c ⟨_, ht⟩ (loc2Of (ix2 p q) 1) k q ⟨256 * s + k.val, hK⟩
      (by show q.val = (16 * run2Of (ix2 p q) + s) / 16 % 4 * 1024 + (loc2Of (ix2 p q) 1).val; rw [hrun, hl1]; omega)
      (by show 256 * s + k.val = (16 * run2Of (ix2 p q) + s) % 16 * 256 + k.val; omega)))

end Cert.KernelIdeal.Layer

end
-- ==== Proof.Reference.lean ====
/-
  The reference read at an index.

  The reference rounds the weight, takes the sign, and forms the straight-through weight
  `w + (sign (round w) - w)` before one 4096-deep contraction with x. Where every weight is a real number the
  straight-through weight is the ternary weight itself, so entry (p, q) of the result is
  `linear x w p q`, the sum over the input features k of x (p, k) * tern (w (q, k)).
-/
import proofs.«128047_j61624190763534_2_alg».proof.Proof.Gen.ReferenceIdeal.Read
import proofs.«128047_j61624190763534_2_alg».proof.Proof.Ternary

noncomputable section

open scoped BigOperators

namespace Cert.ReferenceIdeal.Layer

open Cert.ReferenceIdeal Cert.ReferenceIdeal.Gen Cert.ReferenceIdeal.Read Idealize.ShloMosaic Idealize.ShloMosaic.ValueIdx Cert.Ternary

/-- The straight-through weight at a real entry is the ternary weight. -/
theorem weight_apply (w : (⟨S4096x4096, .f32⟩ : BufTy).Contents (Elt Ideal)) (j : S4096x4096.Idx) (r : ℝ) (hr : w j = (r : EReal)) :
    val_main_v3 (F := Ideal) w j = tern (w j) := by
  rw [val_main_v3_apply, val_main_v2_apply, val_main_v1_apply, val_main_v0_apply]
  show w j + (tern (w j) - w j) = tern (w j)
  rw [hr]
  exact straight_through r

/-- The reference's result at entry (p, q), where every weight is a real number: the layer. -/
theorem result_apply (x : (⟨S8192x4096, .f32⟩ : BufTy).Contents (Elt Ideal)) (w : (⟨S4096x4096, .f32⟩ : BufTy).Contents (Elt Ideal))
    (hw : ∀ j, ∃ r : ℝ, w j = (r : EReal)) (p : Fin 8192) (q : Fin 4096) :
    val_main_v4 (F := Ideal) x w (ix2 p q) = linear x w p q := by
  rw [val_main_v4_apply]
  unfold linear
  refine Finset.sum_congr rfl fun k _ => ?_
  have el : lidx_main_v4 (ix2 p q) k = ix2 p k := funext fun a => by match a with | ⟨0, _⟩ => rfl | ⟨1, _⟩ => rfl
  have er : ridx_main_v4 (ix2 p q) k = ix2 q k := funext fun a => by match a with | ⟨0, _⟩ => rfl | ⟨1, _⟩ => rfl
  obtain ⟨r, hr⟩ := hw (ix2 q k)
  rw [el, er, weight_apply w _ r hr]

end Cert.ReferenceIdeal.Layer

end
-- ==== Proof.Finite.lean ====
/-
  What the precondition says of the weight: every entry is a real number.

  The precondition is the conjunction of two "all entries satisfy |v| < +inf" tests, one per argument. Where it
  holds, each entry of the weight has absolute value below the top element of the extended reals, so it is
  neither infinity: it is (the image of) a real number.
-/
import proofs.«128047_j61624190763534_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

/-- The scalar shape has one index. -/
instance : Subsingleton S_.Idx := ⟨fun a b => funext fun d => d.elim0⟩

/-- The pattern the test compares against denotes the top element. -/
theorem ofBits_inf : Ideal.ofBits .f32 0x7F800000#32 = ⊤ := by simp [Ideal.ofBits, Ideal.ieee]

/-- An extended real whose absolute value is below the top element is a real number. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

variable [Facts]

/-- Under the precondition every entry of the weight is a real number. -/
theorem weight_real (a0 : FVec Ideal S8192x4096 .f32) (a1 : FVec Ideal S4096x4096 .f32)
    (h : fn (F := Ideal) a0 a1 = fun _ => 1#1) (j : S4096x4096.Idx) : ∃ r : ℝ, a1 j = (r : EReal) := by
  have h0 := congrFun h ValueIdx.ix0
  dsimp only [fn] at h0
  obtain ⟨-, h2⟩ := IntOp.andi_eq_one.1 h0
  have h3 := Host.reduce_andi_all _ _ _ _ _ h2 j
  exact real_of_abs_lt (a1 j) h3

end Cert.Pre_finite_inputs.Finite

end
-- ==== Proof.lean ====
/-
  A linear layer with ternarised weights: out = x · tern(w)ᵀ, x of 8192 x 4096, w of 4096 x 4096, where
  tern(w) is the sign (-1, 0, 1) of w rounded to the nearest integer.

  The kernel tiles the output into 4 x 4 blocks of 2048 x 1024 and the 4096 input features into sixteen blocks
  of 256; for each output block it starts from zero and adds, feature block by feature block, the product of the
  x block with the ternarised weight block. The reference forms the straight-through weight
  w + (tern(w) - w) and contracts all 4096 features at once.

  Over the extended reals the two agree entry by entry:
    * the kernel's select-on-sign form of the sign is the sign function (at zero and at both infinities too);
    * w + (tern(w) - w) = tern(w) wherever w is a real number, which the precondition gives for every weight
      (the cancellation fails at an infinity, so this is where finiteness is used; x is never opened);
    * sixteen partial sums of 256 consecutive terms are the sum of the 4096 terms (associativity of + alone).
  The three runs, and that the arguments end unchanged, are the generated frames and the generated reference run;
  the one rewrite of the idealisation (one with the sign bit of v, as a select on v < 0) is its rule's statement.
-/
import proofs.«128047_j61624190763534_2_alg».proof.Defs
import proofs.«128047_j61624190763534_2_alg».proof.Proof.Gen.Kernel
import proofs.«128047_j61624190763534_2_alg».proof.Proof.Gen.Kernel.Skeleton
import proofs.«128047_j61624190763534_2_alg».proof.Proof.Gen.Kernel.Launch
import proofs.«128047_j61624190763534_2_alg».proof.Proof.Gen.Kernel.Points
import proofs.«128047_j61624190763534_2_alg».proof.Proof.Gen.Kernel.Frame
import proofs.«128047_j61624190763534_2_alg».proof.Proof.Gen.KernelIdeal
import proofs.«128047_j61624190763534_2_alg».proof.Proof.Gen.KernelIdeal.Skeleton
import proofs.«128047_j61624190763534_2_alg».proof.Proof.Gen.KernelIdeal.Launch
import proofs.«128047_j61624190763534_2_alg».proof.Proof.Gen.KernelIdeal.Points
import proofs.«128047_j61624190763534_2_alg».proof.Proof.Gen.KernelIdeal.Frame
import proofs.«128047_j61624190763534_2_alg».proof.Proof.Gen.ReferenceIdeal
import proofs.«128047_j61624190763534_2_alg».proof.Proof.Gen.KernelIdeal.Value
import proofs.«128047_j61624190763534_2_alg».proof.Proof.Gen.ReferenceIdeal.Run
import proofs.«128047_j61624190763534_2_alg».proof.Proof.Gen.ReferenceIdeal.Read
import proofs.«128047_j61624190763534_2_alg».proof.Proof.Gen.Pre_finite_inputs
import proofs.«128047_j61624190763534_2_alg».proof.Proof.Blocks
import proofs.«128047_j61624190763534_2_alg».proof.Proof.Reference
import proofs.«128047_j61624190763534_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves x and the weight as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation's one rewrite: 1.0 carrying the sign bit of v is -1 where v < 0 and 1 elsewhere. -/
theorem preserves : Cert.preserves_Kernel_KernelIdeal :=
  IdealRules.sign_bit.statement Cert.KernelIdeal.S1024x256 .f32

/-- Both programs end with the layer `linear x w` in their result, entry by entry. -/
theorem algebraic : Cert.algebraic_KernelIdeal_ReferenceIdeal := by
  intro m ρ m' ρ' hpre hagree
  refine ⟨fun c => Cert.KernelIdeal.Value.G2 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  obtain ⟨p, q, rfl⟩ : ∃ (p : Fin 8192) (q : Fin 4096), i = ix2 p q := ⟨i 0, i 1, eq_ix2 i⟩
  have hw := fun j => Cert.Pre_finite_inputs.Finite.weight_real _ _ (hpre c) j
  exact (Cert.ReferenceIdeal.Layer.result_apply _ _ hw p q).trans (Cert.KernelIdeal.Layer.result_apply m c p q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
